-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S8192x4096 : Shape := ⟨2, ![8192, 4096]⟩
abbrev S4096 : Shape := ⟨1, ![4096]⟩
abbrev S512x4096 : Shape := ⟨2, ![512, 4096]⟩
abbrev S1x4096 : Shape := ⟨2, ![1, 4096]⟩

abbrev nBuf : Space → Nat
  | .hbm => 3
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S4096, .f32⟩
  | .local _ .vmem, ⟨3, _⟩ => ⟨S512x4096, .f32⟩
  | .local _ .vmem, ⟨4, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4096_S4096_0 : ∀ a, (![0] : Fin 1 → Nat) a + S4096.size a ≤ S4096.size a
  h_S4096 : 0 < S4096.numel
  shapeCasts_S4096_S1x4096 : S4096.ShapeCasts S1x4096
  shapeCasts_S1x4096_S1x4096 : S1x4096.ShapeCasts S1x4096
  broadcasts_S1x4096_S512x4096 : S1x4096.Broadcasts S512x4096
  inb_S512x4096_S512x4096_0_0 : ∀ a, (![0, 0] : Fin 2 → Nat) a + S512x4096.size a ≤ S512x4096.size a
  h_S512x4096 : 0 < S512x4096.numel
  natLt_1_32 : 1 < 32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S4096.size a
  hwx0_1 : ∀ i : grid0.Coords, EltTy.bits .f32 = 32 ∨ (Rect.block (s := S4096) S4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S8192x4096.size a
  hwx0_2 : ∀ i : grid0.Coords, EltTy.bits .f32 = 32 ∨ (Rect.block (s := S8192x4096) S512x4096.size (cc0_transform_2 i) (hinb0_2 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096 : Shape := ⟨1, ![4096]⟩
abbrev S_ : Shape := ⟨0, ![]⟩
abbrev S1x4096 : Shape := ⟨2, ![1, 4096]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S_, .f32⟩
  | .hbm, ⟨3, _⟩ => ⟨S4096, .f32⟩
  | .hbm, ⟨4, _⟩ => ⟨S4096, .i1⟩
  | .hbm, ⟨5, _⟩ => ⟨S1x4096, .f32⟩
  | .hbm, ⟨6, _⟩ => ⟨S8192x4096, .f32⟩
  | .hbm, ⟨7, _⟩ => ⟨S8192x4096, .i1⟩
  | .hbm, ⟨8, _⟩ => ⟨S1x4096, .i1⟩
  | .hbm, ⟨9, _⟩ => ⟨S8192x4096, .i1⟩
  | .hbm, ⟨10, _⟩ => ⟨S8192x4096, .i1⟩
  | .hbm, ⟨11, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)

variable [Facts₀]

class Facts : Prop extends Facts₀ where

variable [Facts]
-- ==== Proof.Indicator.lean ====
/-
  The mathematics of the binarize layer, apart from any program.

  For an entry `x` and the median `med` of its feature, the layer's output is the indicator of
  "the median is positive and the entry reaches it":  1 if 0 < med ∧ med ≤ x, else 0.
  A second way to compute it folds the two tests into one: put the threshold at the median where the
  median is positive and at +∞ elsewhere, and ask whether the entry reaches the threshold.
  Over the extended reals the two agree exactly when the entry is not +∞ (an entry +∞ reaches the
  threshold +∞, while the indicator of a non-positive median is 0): `reaches_eq_indicator`.

  Also here: how each side's float and bit operations read at the ideal instance — a comparison is the
  order's decision as one bit, a conversion of that bit to a float is the real 0 or 1 — so that each
  program's per-entry term is `reaches` or `indicator` of its operands (`reaches_ops`,
  `indicator_ops`), and the two whole-array functions built from them.
-/
import Idealize.ShloMosaic.PureOps.Ideal
import Idealize.ShloMosaic.PureOps.Ideal.Laws

noncomputable section

namespace Binarize

open Idealize.ShloMosaic

/-! ## Per entry -/

/-- 1 where the feature's median is positive and the entry is at least the median, else 0. -/
def indicator (x med : EReal) : EReal := if 0 < med ∧ med ≤ x then 1 else 0

/-- The single threshold: the median where it is positive, +∞ where it is not. -/
def threshold (med : EReal) : EReal := if 0 < med then med else ⊤

/-- 1 where the entry is at least the threshold, else 0. -/
def reaches (x med : EReal) : EReal := if threshold med ≤ x then 1 else 0

/-- An entry below +∞ reaches the threshold exactly when the median is positive and the entry is at least
    the median: with a positive median the threshold IS the median; otherwise the threshold is +∞, which
    only +∞ reaches. -/
theorem reaches_eq_indicator {x med : EReal} (hx : x ≠ ⊤) : reaches x med = indicator x med := by
  unfold reaches indicator threshold
  by_cases h : 0 < med
  · simp only [h, if_true, true_and]
  · have hno : ¬ (⊤ : EReal) ≤ x := fun hle => hx (top_le_iff.mp hle)
    simp only [h, if_false, false_and, hno]

/-! ## The operations at the ideal instance -/

/-- One bit, widened to 32 and read as a signed integer, is the real 0 or 1. -/
theorem bit_widened (b : Bool) : ((((BitVec.ofBool b).setWidth 32).toInt : ℝ) : EReal) = if b then 1 else 0 := by
  cases b
  · show (((0 : ℤ) : ℝ) : EReal) = 0; simp
  · show (((1 : ℤ) : ℝ) : EReal) = 1; simp

/-- One bit read as an unsigned integer is the real 0 or 1. -/
theorem bit_unsigned (b : Bool) : ((((BitVec.ofBool b).toNat : ℕ) : ℝ) : EReal) = if b then 1 else 0 := by
  cases b
  · show (((0 : ℕ) : ℝ) : EReal) = 0; simp
  · show (((1 : ℕ) : ℝ) : EReal) = 1; simp

/-- The conjunction of two decisions, as bits. -/
theorem bit_and (a b : Bool) : IntOp.andi (BitVec.ofBool a) (BitVec.ofBool b) = BitVec.ofBool (a && b) := by
  cases a <;> cases b <;> rfl

/-- The +∞ word of f32 is the extended real +∞. -/
theorem inf_word : Ideal.ofBits .f32 0x7F800000#32 = ⊤ := by simp [Ideal.ofBits, Ideal.ieee]

/-- A select on a decision's bit is the `if` on the decision. -/
theorem select_bit {α : Type} (p : Prop) [Decidable p] (a b : α) :
    Scalar.select (BitVec.ofBool (decide p)) a b = if p then a else b := by
  unfold Scalar.select
  by_cases h : p
  · simp [h]
  · simp [h]

/-- The one-comparison form, as its operations at the ideal instance: compare the median with the zero word,
    select the median or the +∞ word, compare the entry with that, widen the bit and convert it. -/
theorem reaches_ops (x med : Ideal .f32) :
    FloatOps.sitofp (F := Ideal) .f32 ((FloatOps.cmpf .oge x (Scalar.select (FloatOps.cmpf .ogt med
      (Scalar.ofBits .f32 0x00000000#32)) med (Scalar.ofBits .f32 0x7F800000#32))).setWidth 32) = reaches x med := by
  show ((((BitVec.ofBool (decide (Scalar.select (BitVec.ofBool (decide (Ideal.ofBits .f32 0x00000000#32 < med))) med
      (Ideal.ofBits .f32 0x7F800000#32) ≤ x))).setWidth 32).toInt : ℝ) : EReal) = _
  rw [bit_widened, select_bit, Ideal.ofBits_zero_f32, inf_word]
  unfold reaches threshold
  simp only [decide_eq_true_eq]

/-- The two-test form, as its operations at the ideal instance: the bit of "median above the zero word" and the
    bit of "entry at least the median", their conjunction, converted. -/
theorem indicator_ops (x med : Ideal .f32) :
    FloatOps.uitofp (F := Ideal) .f32 (IntOp.andi (FloatOps.cmpf .ogt med (FloatOps.ofBits .f32 0x00000000#32))
      (FloatOps.cmpf .oge x med)) = indicator x med := by
  show ((((IntOp.andi (BitVec.ofBool (decide (Ideal.ofBits .f32 0x00000000#32 < med)))
      (BitVec.ofBool (decide (med ≤ x)))).toNat : ℕ) : ℝ) : EReal) = _
  rw [bit_and, bit_unsigned, Ideal.ofBits_zero_f32]
  unfold indicator
  simp only [Bool.and_eq_true, decide_eq_true_eq]

/-! ## Whole arrays -/

/-- The entries: 8192 rows of 4096 features. -/
abbrev Entries : Shape := ⟨2, ![8192, 4096]⟩
/-- The medians: one per feature. -/
abbrev Features : Shape := ⟨1, ![4096]⟩

/-- The feature an entry belongs to: its column. -/
def feature (i : Entries.Idx) : Features.Idx := fun a => match a with
  | ⟨0, _⟩ => ⟨(i 1).val, (i 1).isLt⟩

/-- The layer's output, entry by entry: the indicator of the entry against its feature's median. -/
def binarized (X : Entries.Idx → Ideal .f32) (M : Features.Idx → Ideal .f32) : Entries.Idx → Ideal .f32 :=
  fun i => indicator (X i) (M (feature i))

/-- The one-comparison form, entry by entry. -/
def thresholded (X : Entries.Idx → Ideal .f32) (M : Features.Idx → Ideal .f32) : Entries.Idx → Ideal .f32 :=
  fun i => reaches (X i) (M (feature i))

/-- On entries none of which is +∞ the two forms are one array. -/
theorem thresholded_eq_binarized (X : Entries.Idx → Ideal .f32) (M : Features.Idx → Ideal .f32)
    (hX : ∀ i, X i ≠ ⊤) : thresholded X M = binarized X M :=
  funext fun i => reaches_eq_indicator (hX i)

end Binarize

end
-- ==== Proof.KernelThresholded.lean ====
/-
  The kernel's output array is the one-comparison form of the binarize layer, entry by entry.

  The grid has 16 points; point `t` works on rows 512·t … 512·t + 511 of the entries, all 4096 columns, and on
  the whole vector of medians. What the body leaves in its output block, at position `(r, q)` of the block, is
  "does the entry at `(r, q)` of the input block reach the threshold of median `q`" (the generated index-by-index
  form of the block). The input block and the output block of a point sit over the same rows of their arrays, and
  the medians' block is the whole vector, so position `(r, q)` of point `t`'s output block holds the thresholded
  value of array entry `(512·t + r, q)`: each point writes back its block of ONE whole-array function. Every row
  lies in the block of point `row / 512`, so the blocks cover the array and the array ends as that function.
-/
import proofs.«112697_j22754736734796_2_alg».proof.Proof.Gen.KernelIdeal.Value
import proofs.«112697_j22754736734796_2_alg».proof.Proof.Indicator
import Idealize.ShloMosaic.Lib.Pipeline.Value

noncomputable section

namespace Cert.KernelIdeal.Thresholded

open Cert.KernelIdeal Cert.KernelIdeal.Gen Cert.KernelIdeal.Value Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## One block -/

/-- What the body leaves at position `j` of its output block, for any contents of the two input blocks: the
    thresholded value of the loaded entry at `j` against the loaded median at `j`'s column. (The generated module gives the
    block as the body's operations of the two loads, index by index; those operations are the one-comparison form.) -/
theorem block_value (P0 : Vec Ideal S512x4096 .f32) (P1 : Vec Ideal S4096 .f32) (j : S512x4096.Idx) :
    out0_2 P0 P1 j = Binarize.reaches (View.ld P0 r0_1 (ix2_0 j)) (View.ld P1 r0_0 (ix2_1 j)) := by
  unfold out0_2
  refine (canon2_eq (F := Ideal) (View.ld P0 r0_1) (View.ld P1 r0_0) j).trans ?_
  exact Binarize.reaches_ops _ _

/-- The same, with the two loaded values named. -/
theorem block_value_of (P0 : Vec Ideal S512x4096 .f32) (P1 : Vec Ideal S4096 .f32) (x med : Ideal .f32)
    (j : S512x4096.Idx) (h0 : View.ld P0 r0_1 (ix2_0 j) = x) (h1 : View.ld P1 r0_0 (ix2_1 j) = med) :
    out0_2 P0 P1 j = Binarize.reaches x med := by
  rw [block_value, h0, h1]

/-! ## Where the blocks sit -/

/-- The index maps over the 16 points: the entries' block and the output's block are on the same block row, in
    block column 0; the medians' block is block 0. -/
theorem block_indices : ∀ t : Fin cfg0.N, win0_0.index t (0 : Fin 2) = win0_2.index t (0 : Fin 2)
    ∧ win0_0.index t (1 : Fin 2) = 0 ∧ win0_2.index t (1 : Fin 2) = 0 ∧ win0_1.index t (0 : Fin 1) = 0 :=
  (by decide +kernel : ∀ t : Fin grid0.N, _)

/-- Every block row 0 … 15 is some point's. -/
theorem block_onto : ∀ q : Fin 16, ∃ t : Fin cfg0.N, win0_2.index t = ![q.val, 0] :=
  (by decide +kernel : ∀ q : Fin 16, ∃ t : Fin grid0.N, win0_2.index t = ![q.val, 0])

/-- Point `t` writes back block `t` of the thresholded array of the arguments as the region finds them. -/
theorem flushed_eq (c : Dev nD) (t : Fin cfg0.N) :
    (dats m 0 c).flushed 2 t = ((cfg0.win 2).blk t).view.read (Elt Ideal)
      (Binarize.thresholded (V m c main_arg0) (V m c main_arg1)) := by
  show (cfg0.win 2).cut (grid0.coords t) ((dats m 0 c).after 2 t) = _
  rw [after0_2]
  obtain ⟨e0, e1, e2, e3⟩ := block_indices t
  funext j
  have hj0 : (j 0).val < 512 := (j 0).isLt
  have hj1 : (j 1).val < 4096 := (j 1).isLt
  show out0_2 (iblk m c 0 t) (iblk m c 1 t) j = Binarize.reaches (V m c main_arg0 (((cfg0.win 2).blk t).view.emb j))
    (V m c main_arg1 (Binarize.feature (((cfg0.win 2).blk t).view.emb j)))
  refine block_value_of (iblk m c 0 t) (iblk m c 1 t) _ _ j ?_ ?_
  · show V m c main_arg0 (((cfg0.win 0).blk t).view.emb (r0_1.idx (ix2_0 j))) = V m c main_arg0 (((cfg0.win 2).blk t).view.emb j)
    congr 1; funext a; apply Fin.ext
    match a with
    | ⟨0, _⟩ => show win0_0.index t (0 : Fin 2) * 512 + 1 * (0 + 1 * (j 0).val) = win0_2.index t (0 : Fin 2) * 512 + 1 * (j 0).val; omega
    | ⟨1, _⟩ => show win0_0.index t (1 : Fin 2) * 4096 + 1 * (0 + 1 * (j 1).val) = win0_2.index t (1 : Fin 2) * 4096 + 1 * (j 1).val; omega
  · show V m c main_arg1 (((cfg0.win 1).blk t).view.emb (r0_0.idx (ix2_1 j))) = V m c main_arg1 (Binarize.feature (((cfg0.win 2).blk t).view.emb j))
    congr 1; funext a; apply Fin.ext
    match a with
    | ⟨0, _⟩ => show win0_1.index t (0 : Fin 1) * 4096 + 1 * (0 + 1 * (j 1).val) = win0_2.index t (1 : Fin 2) * 4096 + 1 * (j 1).val; omega

/-- An entry is in point `t`'s output block iff each coordinate is in the block's range on its axis. -/
theorem mem_block (t : Fin cfg0.N) (i : S8192x4096.Idx) :
    i ∈ ((cfg0.win 2).blk t).view.set ↔ ∀ a : Fin 2, win0_2.index t a * S512x4096.size a ≤ (i a).val
      ∧ (i a).val < win0_2.index t a * S512x4096.size a + S512x4096.size a := by
  show i ∈ ((View.whole main_v0).slice (win0_2.rect t)).set ↔ _
  rw [View.set_slice_whole, Rect.mem_set_unit]
  exact Iff.rfl

/-- Every entry is in the block of the point of its row: row `r` belongs to block row `r / 512`. -/
theorem covered (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ := block_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 4096 ≤ (i 1).val ∧ (i 1).val < win0_2.index t (1 : Fin 2) * 4096 + 4096; omega

/-! ## The whole array, and the run -/

/-- After the run the output array is the thresholded array of the two arguments. -/
theorem final (c : Dev nD) : (dats m 0 c).arrAt 2 cfg0.N
    = Binarize.thresholded (m ((c : Thread nD τ).loc main_arg0)) (m ((c : Thread nD τ).loc main_arg1)) :=
  (dats m 0 c).arrAt_eq_of_cover 2 _ (fun t _ => flushed_eq m c t) covered

/-- Every weakly fair execution of the kernel's program terminates with the result array at the thresholded array
    of the arguments, and the arguments unchanged. -/
theorem run : θ_run defs (onTc (τ := τ) (main (F := Ideal))) ⟨m, fun _ => 0, ρ⟩ fun r => ∀ c : Dev nD,
      r.2.mem ((c : Thread nD τ).loc main_v0)
        = Binarize.thresholded (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Thresholded

end
-- ==== Proof.ReferenceBinarized.lean ====
/-
  The reference computes the binarize layer's indicator, entry by entry.

  Its host operations compare the medians with zero (one bit per feature), compare every entry with its
  feature's median (one bit per entry), spread the first bit along the rows, take the conjunction and convert
  the bit to a float. Read at an entry `i`, both spread operands are taken at the entry's column, so the
  result there is the indicator of `inputs i` against `medians (column of i)`. No finiteness is needed.
-/
import proofs.«112697_j22754736734796_2_alg».proof.Proof.Gen.ReferenceIdeal.Read
import proofs.«112697_j22754736734796_2_alg».proof.Proof.Indicator

noncomputable section

namespace Cert.ReferenceIdeal.Binarized

open Cert.ReferenceIdeal Cert.ReferenceIdeal.Gen Cert.ReferenceIdeal.Read Idealize.ShloMosaic Idealize.ShloMosaic.TcCoe Idealize.SL.Sem

/-- Spreading a per-feature bit first to one row and then to all rows reads it at the entry's column. -/
theorem bit_column (i : S8192x4096.Idx) : idx_main_v5 (idx_main_v6 i) = Binarize.feature i :=
  funext fun a => Fin.ext (by match a with | ⟨0, _⟩ => rfl)

/-- Spreading the medians first to one row and then to all rows reads them at the entry's column. -/
theorem median_column (i : S8192x4096.Idx) : idx_main_v2 (idx_main_v3 i) = Binarize.feature i :=
  funext fun a => Fin.ext (by match a with | ⟨0, _⟩ => rfl)

/-- The reference's result, as a function of its two arguments, is the indicator array. -/
theorem result_eq (X : (⟨S8192x4096, .f32⟩ : BufTy).Contents (Elt Ideal)) (M : (⟨S4096, .f32⟩ : BufTy).Contents (Elt Ideal)) :
    val_main_v8 (F := Ideal) X M = Binarize.binarized X M := by
  funext i
  rw [val_main_v8_apply, val_main_v7_apply, val_main_v6_apply, val_main_v5_apply, val_main_v1_apply, val_main_v0_apply,
    val_main_cst_apply, val_main_v4_apply, val_main_v3_apply, val_main_v2_apply, bit_column, median_column]
  exact Binarize.indicator_ops (X i) (M (Binarize.feature i))

end Cert.ReferenceIdeal.Binarized

end
-- ==== Proof.EntriesFinite.lean ====
/-
  From the precondition to the one fact the equivalence uses: no entry of `inputs` is +∞.

  The precondition says that the conjunction, over all entries, of "|x| is below the +∞ word" (and the same over
  the medians) is 1. A conjunction over every index that came out 1 had a 1 at every index; the absolute value of
  an extended real is the larger of x and −x, so |x| < +∞ gives x < +∞. Only the entries' half is needed: the
  medians may be anything.
-/
import proofs.«112697_j22754736734796_2_alg».proof.Pre_finite_inputs
import proofs.«112697_j22754736734796_2_alg».proof.Proof.Indicator
import Idealize.ShloMosaic.Lib.ReduceAll
import Idealize.ShloMosaic.Lib.Pipeline.Value
import Idealize.ShloMosaic.Lib.ValueIdx

noncomputable section

namespace Cert.Pre_finite_inputs.Entries

open Idealize.ShloMosaic Cert.Pre_finite_inputs

/-- The scalar shape has one index. -/
instance : Subsingleton S_.Idx := ⟨fun a b => funext fun d => d.elim0⟩

/-- An extended real whose absolute value compares below the +∞ word is not +∞. -/
theorem ne_top_of_abs_lt (x : Ideal .f32)
    (h : FloatOps.cmpf (F := Ideal) .olt (FloatOps.hostAbsf x) (FloatOps.ofBits .f32 0x7F800000#32) = 1#1) : x ≠ ⊤ := by
  intro hx
  subst hx
  revert h
  show BitVec.ofBool (decide (max (⊤ : EReal) (-⊤) < Ideal.ofBits .f32 0x7F800000#32)) = 1#1 → False
  rw [Binarize.inf_word]
  simp

variable [Facts]

/-- Under the precondition every entry of the first argument is below +∞. -/
theorem ne_top (X : FVec Ideal S8192x4096 .f32) (M : FVec Ideal S4096 .f32)
    (h : fn (F := Ideal) X M = fun _ => 1#1) (i : S8192x4096.Idx) : X i ≠ ⊤ := by
  have h0 := congrFun h ValueIdx.ix0
  dsimp only [fn] at h0
  have h1 := (IntOp.andi_eq_one.mp h0).1
  have h2 := Host.reduce_andi_all _ _ _ _ _ h1 i
  refine ne_top_of_abs_lt (X i) ?_
  have hb : broadcastInDim S8192x4096 ![] Facts.bcast_S_S8192x4096 (constant (F := Ideal) S_ .f32 0x7F800000#32) i
      = FloatOps.ofBits .f32 0x7F800000#32 :=
    broadcastInDim_apply _ _ _ i (fun a => a.elim0) (fun a => a.elim0)
  rw [← hb]
  exact h2

end Cert.Pre_finite_inputs.Entries

end
-- ==== Proof.lean ====
/-
  The binarize layer: the tiled kernel against the plain array program, over the extended reals.

  Both programs take `inputs` (8192 × 4096) and `medians` (4096) and return an 8192 × 4096 array of zeros and ones.
  The reference's entry `(b, f)` is 1 exactly when `medians f > 0` and `inputs (b, f) ≥ medians f`. The kernel walks
  16 tiles of 512 rows; in each it replaces a non-positive median by +∞ and makes ONE comparison,
  `inputs (b, f) ≥ threshold f`. With a positive median the two tests are the same test. With a non-positive median
  the reference gives 0, and the kernel gives 0 unless the entry itself is +∞ — which the precondition excludes: every
  entry of `inputs` has absolute value below +∞. That is the only use of the precondition; the medians are unconstrained,
  and no arithmetic law is involved, only the order of the extended reals.

  The pieces: `Binarize` (the two per-entry forms, their agreement off +∞, and each side's operations read at the ideal
  instance); the kernel's output array as the one-comparison form of its arguments (its blocks are the 512-row
  tiles of one whole-array function, and the tiles cover the array); the reference's result as the two-test form,
  read one host operation at a time; the entries' finiteness out of the precondition. The kernel's ideal pass changed
  nothing, so the idealization claim is the trivial one, and the three frames are the generated runs.
-/
import proofs.«112697_j22754736734796_2_alg».proof.Defs
import proofs.«112697_j22754736734796_2_alg».proof.Proof.Gen.Kernel
import proofs.«112697_j22754736734796_2_alg».proof.Proof.Gen.Kernel.Skeleton
import proofs.«112697_j22754736734796_2_alg».proof.Proof.Gen.Kernel.Launch
import proofs.«112697_j22754736734796_2_alg».proof.Proof.Gen.Kernel.Points
import proofs.«112697_j22754736734796_2_alg».proof.Proof.Gen.Kernel.Frame
import proofs.«112697_j22754736734796_2_alg».proof.Proof.Gen.KernelIdeal
import proofs.«112697_j22754736734796_2_alg».proof.Proof.Gen.KernelIdeal.Skeleton
import proofs.«112697_j22754736734796_2_alg».proof.Proof.Gen.KernelIdeal.Launch
import proofs.«112697_j22754736734796_2_alg».proof.Proof.Gen.KernelIdeal.Points
import proofs.«112697_j22754736734796_2_alg».proof.Proof.Gen.KernelIdeal.Frame
import proofs.«112697_j22754736734796_2_alg».proof.Proof.Gen.ReferenceIdeal
import proofs.«112697_j22754736734796_2_alg».proof.Proof.Gen.Pre_finite_inputs
import proofs.«112697_j22754736734796_2_alg».proof.Proof.Gen.KernelIdeal.Value
import proofs.«112697_j22754736734796_2_alg».proof.Proof.Gen.ReferenceIdeal.Run
import proofs.«112697_j22754736734796_2_alg».proof.Proof.Gen.ReferenceIdeal.Read
import proofs.«112697_j22754736734796_2_alg».proof.Proof.Indicator
import proofs.«112697_j22754736734796_2_alg».proof.Proof.KernelThresholded
import proofs.«112697_j22754736734796_2_alg».proof.Proof.ReferenceBinarized
import proofs.«112697_j22754736734796_2_alg».proof.Proof.EntriesFinite
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments alone. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel was rewritten when it was read over the extended reals. -/
theorem preserves : Cert.preserves_Kernel_KernelIdeal := trivial

/-- From arguments that agree, the kernel ends with the one-comparison array and the reference with the two-test array;
    the precondition keeps every entry off +∞, where the two arrays are one. -/
theorem algebraic : Cert.algebraic_KernelIdeal_ReferenceIdeal := by
  intro m ρ m' ρ' hpre hagree
  refine ⟨_, Cert.KernelIdeal.Thresholded.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.Binarized.result_eq, (hagree c).1, (hagree c).2]
  exact (Binarize.thresholded_eq_binarized _ _ (Cert.Pre_finite_inputs.Entries.ne_top _ _ (hpre c))).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
